-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32768x256 : Shape := ⟨3, ![8, 32768, 256]⟩
abbrev S8x32768 : Shape := ⟨2, ![8, 32768]⟩
abbrev S_ : Shape := ⟨0, ![]⟩

class Facts : Prop where
  bcast_S_S8x32768x256 : S_.BroadcastsInDim S8x32768x256 (![] : Fin 0 → Fin S8x32768x256.rank)
  reducesTo_S8x32768x256_S_d0_1_2 : S8x32768x256.ReducesTo [0, 1, 2] S_
  h_S_ : 0 < S_.numel

variable [Facts]

def fn {F : FTy → Type} [FloatOps F] (main_arg0 : FVec F S8x32768x256 .f32) (main_arg1 : IVec S8x32768 32) : IVec S_ 1 :=
  let main_v0 : FVec F S8x32768x256 .f32 := Host.absf main_arg0
  let main_cst : FVec F S_ .f32 := constant S_ .f32 0x7F800000#32
  let main_v1 : FVec F S8x32768x256 .f32 := broadcastInDim S8x32768x256 ![] bcast_S_S8x32768x256 main_cst
  let main_v2 : IVec S8x32768x256 1 := cmpf .olt main_v0 main_v1
  let main_c : IVec S_ 1 := constantI S_ 1 1#1
  let main_v3 : IVec S_ 1 := (fun x v => Host.reduce IntOp.andi x v reducesTo_S8x32768x256_S_d0_1_2 h_S_) main_v2 main_c
  main_v3
-- ==== Kernel.lean ====
abbrev S8x32768x256 : Shape := ⟨3, ![8, 32768, 256]⟩
abbrev S8x32768 : Shape := ⟨2, ![8, 32768]⟩
abbrev S_ : Shape := ⟨0, ![]⟩
abbrev S8 : Shape := ⟨1, ![8]⟩
abbrev S8x32x32x32x256 : Shape := ⟨5, ![8, 32, 32, 32, 256]⟩
abbrev S1x256x256 : Shape := ⟨3, ![1, 256, 256]⟩
abbrev S1x8x32x32x256 : Shape := ⟨5, ![1, 8, 32, 32, 256]⟩
abbrev S1 : Shape := ⟨1, ![1]⟩
abbrev S256x256 : Shape := ⟨2, ![256, 256]⟩
abbrev S8x32x256 : Shape := ⟨3, ![8, 32, 256]⟩
abbrev S8x32x1x256 : Shape := ⟨4, ![8, 32, 1, 256]⟩
abbrev S8x32x32x256 : Shape := ⟨4, ![8, 32, 32, 256]⟩

abbrev nBuf : Space → Nat
  | .hbm => 10
  | .vmem => 4
  | .smem => 1
  | _ => 0

abbrev bufTy : (tb : Table) → Fin (tcTables nBuf tb) → BufTy
  | .hbm, ⟨0, _⟩ => ⟨S8x32768x256, .f32⟩
  | .hbm, ⟨1, _⟩ => ⟨S8x32768, .i32⟩
  | .hbm, ⟨2, _⟩ => ⟨S_, .i32⟩
  | .hbm, ⟨3, _⟩ => ⟨S8, .i32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S8x32x32x32x256, .f32⟩
  | .local _ .vmem, ⟨0, _⟩ => ⟨S1x256x256, .f32⟩
  | .local _ .vmem, ⟨1, _⟩ => ⟨S1x256x256, .f32⟩
  | .local _ .vmem, ⟨2, _⟩ => ⟨S1x8x32x32x256, .f32⟩
  | .local _ .vmem, ⟨3, _⟩ => ⟨S1x8x32x32x256, .f32⟩
  | .local _ .smem, ⟨0, _⟩ => ⟨S8, .i32⟩
  | _, _ => ⟨S8x32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v6 : Ref sig .tc := ⟨.hbm, 9, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x32x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  reducesTo_S8x32768_S8_d1 : S8x32768.ReducesTo [1] S8
  h_S_ : 0 < S_.numel
  bcast_S_S8 : S_.BroadcastsInDim S8 (![] : Fin 0 → Fin S8.rank)
  numel1_S1 : S1.numel = 1
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S8x32x256 : S256x256.ShapeCasts S8x32x256
  iota_S8x32x256_d0_w32 : S8x32x256.Iotas .tc 32 [0]
  iota_S8x32x256_d1_w32 : S8x32x256.Iotas .tc 32 [1]
  shapeCasts_S8x32x256_S8x32x1x256 : S8x32x256.ShapeCasts S8x32x1x256
  shapeCasts_S8x32x1x256_S8x32x1x256 : S8x32x1x256.ShapeCasts S8x32x1x256
  broadcasts_S8x32x1x256_S8x32x32x256 : S8x32x1x256.Broadcasts S8x32x32x256
  inb_S1x8x32x32x256_S1x8x32x32x256_0_0_0_0_0 : ∀ a, (![0, 0, 0, 0, 0] : Fin 5 → Nat) a + S1x8x32x32x256.size a ≤ S1x8x32x32x256.size a
  h_S1x8x32x32x256 : 0 < S1x8x32x32x256.numel
  shapeCasts_S1x8x32x32x256_S8x32x32x256 : S1x8x32x32x256.ShapeCasts S8x32x32x256
  shapeCasts_S8x32x32x256_S1x8x32x32x256 : S8x32x32x256.ShapeCasts S1x8x32x32x256
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S8x32768x256.size a
  hwx0_0 : ∀ i : grid0.Coords, EltTy.bits .f32 = 32 ∨ (Rect.block (s := S8x32768x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x32x32x256.size a ≤ S8x32x32x32x256.size a
  hwx0_1 : ∀ i : grid0.Coords, EltTy.bits .f32 = 32 ∨ (Rect.block (s := S8x32x32x32x256) S1x8x32x32x256.size (cc0_transform_1 i) (hinb0_1 i)).WholeWords (EltTy.packing .f32)

variable [Facts₀]

abbrev spec0_0 : Pipeline.WinSpec sig grid0.rank :=
  Pipeline.WinSpec.ofSpec (Memref.whole main_arg0) S1x256x256.size reads0_0 false false 2 stage0_0 sem0_0 nbuf0_0 hstage0_0

abbrev spec0_1 : Pipeline.WinSpec sig grid0.rank :=
  Pipeline.WinSpec.ofSpec (Memref.whole main_v6) S1x8x32x32x256.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S8x32768x256 : Shape := ⟨3, ![8, 32768, 256]⟩
abbrev S8x32768 : Shape := ⟨2, ![8, 32768]⟩
abbrev S_ : Shape := ⟨0, ![]⟩
abbrev S8 : Shape := ⟨1, ![8]⟩
abbrev S8x1024x256 : Shape := ⟨3, ![8, 1024, 256]⟩
abbrev S8x32x32x256 : Shape := ⟨4, ![8, 32, 32, 256]⟩
abbrev S32 : Shape := ⟨1, ![32]⟩
abbrev S1x32x1 : Shape := ⟨3, ![1, 32, 1]⟩
abbrev S8x1x1 : Shape := ⟨3, ![8, 1, 1]⟩
abbrev S8x32x1 : Shape := ⟨3, ![8, 32, 1]⟩
abbrev S1x1x32 : Shape := ⟨3, ![1, 1, 32]⟩
abbrev S8x1x32 : Shape := ⟨3, ![8, 1, 32]⟩
abbrev S8x32x32 : Shape := ⟨3, ![8, 32, 32]⟩
abbrev S8x32x32x1x1 : Shape := ⟨5, ![8, 32, 32, 1, 1]⟩
abbrev S8x32x32x1x256 : Shape := ⟨5, ![8, 32, 32, 1, 256]⟩
abbrev S8x32x32x32x256 : Shape := ⟨5, ![8, 32, 32, 32, 256]⟩

abbrev nBuf : Space → Nat
  | .hbm => 33
  | .vmem => 0
  | .smem => 0
  | _ => 0

abbrev bufTy : (tb : Table) → Fin (tcTables nBuf tb) → BufTy
  | .hbm, ⟨0, _⟩ => ⟨S8x32768x256, .f32⟩
  | .hbm, ⟨1, _⟩ => ⟨S8x32768, .i32⟩
  | .hbm, ⟨2, _⟩ => ⟨S_, .i32⟩
  | .hbm, ⟨3, _⟩ => ⟨S8, .i32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S8, .i32⟩
  | .hbm, ⟨10, _⟩ => ⟨S8x1024x256, .f32⟩
  | .hbm, ⟨11, _⟩ => ⟨S8x32x32x256, .f32⟩
  | .hbm, ⟨12, _⟩ => ⟨S32, .i32⟩
  | .hbm, ⟨13, _⟩ => ⟨S1x32x1, .i32⟩
  | .hbm, ⟨14, _⟩ => ⟨S8x1x1, .i32⟩
  | .hbm, ⟨15, _⟩ => ⟨S8x32x1, .i32⟩
  | .hbm, ⟨16, _⟩ => ⟨S8x32x1, .i32⟩
  | .hbm, ⟨17, _⟩ => ⟨S8x32x1, .i1⟩
  | .hbm, ⟨18, _⟩ => ⟨S1x1x32, .i32⟩
  | .hbm, ⟨19, _⟩ => ⟨S8x1x1, .i32⟩
  | .hbm, ⟨20, _⟩ => ⟨S8x1x32, .i32⟩
  | .hbm, ⟨21, _⟩ => ⟨S8x1x32, .i32⟩
  | .hbm, ⟨22, _⟩ => ⟨S8x1x32, .i1⟩
  | .hbm, ⟨23, _⟩ => ⟨S8x32x32, .i1⟩
  | .hbm, ⟨24, _⟩ => ⟨S8x32x32, .i1⟩
  | .hbm, ⟨25, _⟩ => ⟨S8x32x32, .i1⟩
  | .hbm, ⟨26, _⟩ => ⟨S8x32x32x1x1, .i1⟩
  | .hbm, ⟨27, _⟩ => ⟨S8x32x32x1x256, .f32⟩
  | .hbm, ⟨28, _⟩ => ⟨S_, .f32⟩
  | .hbm, ⟨29, _⟩ => ⟨S8x32x32x1x256, .i1⟩
  | .hbm, ⟨30, _⟩ => ⟨S8x32x32x1x256, .f32⟩
  | .hbm, ⟨31, _⟩ => ⟨S8x32x32x1x256, .f32⟩
  | .hbm, ⟨32, _⟩ => ⟨S8x32x32x32x256, .f32⟩
  | _, _ => ⟨S8x32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call1_v0 : Ref sig .tc := ⟨.hbm, 29, rfl⟩
abbrev main_call1_v1 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  reducesTo_S8x32768_S8_d1 : S8x32768.ReducesTo [1] S8
  h_S_ : 0 < S_.numel
  bcast_S_S8 : S_.BroadcastsInDim S8 (![] : Fin 0 → Fin S8.rank)
  slices_S8x32768x256_S8x1024x256_0_0_0 : S8x32768x256.Slices ![0, 0, 0] S8x1024x256
  shapeCasts_S8x1024x256_S8x32x32x256 : S8x1024x256.ShapeCasts S8x32x32x256
  bcast_S32_S1x32x1_1 : S32.BroadcastsInDim S1x32x1 (![1] : Fin 1 → Fin S1x32x1.rank)
  bcast_S8_S8x1x1_0 : S8.BroadcastsInDim S8x1x1 (![0] : Fin 1 → Fin S8x1x1.rank)
  bcast_S1x32x1_S8x32x1_0_1_2 : S1x32x1.BroadcastsInDim S8x32x1 (![0, 1, 2] : Fin 3 → Fin S8x32x1.rank)
  bcast_S8x1x1_S8x32x1_0_1_2 : S8x1x1.BroadcastsInDim S8x32x1 (![0, 1, 2] : Fin 3 → Fin S8x32x1.rank)
  bcast_S32_S1x1x32_2 : S32.BroadcastsInDim S1x1x32 (![2] : Fin 1 → Fin S1x1x32.rank)
  bcast_S1x1x32_S8x1x32_0_1_2 : S1x1x32.BroadcastsInDim S8x1x32 (![0, 1, 2] : Fin 3 → Fin S8x1x32.rank)
  bcast_S8x1x1_S8x1x32_0_1_2 : S8x1x1.BroadcastsInDim S8x1x32 (![0, 1, 2] : Fin 3 → Fin S8x1x32.rank)
  bcast_S8x32x1_S8x32x32_0_1_2 : S8x32x1.BroadcastsInDim S8x32x32 (![0, 1, 2] : Fin 3 → Fin S8x32x32.rank)
  bcast_S8x1x32_S8x32x32_0_1_2 : S8x1x32.BroadcastsInDim S8x32x32 (![0, 1, 2] : Fin 3 → Fin S8x32x32.rank)
  bcast_S8x32x32_S8x32x32x1x1_0_1_2 : S8x32x32.BroadcastsInDim S8x32x32x1x1 (![0, 1, 2] : Fin 3 → Fin S8x32x32x1x1.rank)
  bcast_S8x32x32x256_S8x32x32x1x256_0_1_2_4 : S8x32x32x256.BroadcastsInDim S8x32x32x1x256 (![0, 1, 2, 4] : Fin 4 → Fin S8x32x32x1x256.rank)
  bcast_S8x32x32x1x1_S8x32x32x1x256_0_1_2_3_4 : S8x32x32x1x1.BroadcastsInDim S8x32x32x1x256 (![0, 1, 2, 3, 4] : Fin 5 → Fin S8x32x32x1x256.rank)
  bcast_S_S8x32x32x1x256 : S_.BroadcastsInDim S8x32x32x1x256 (![] : Fin 0 → Fin S8x32x32x1x256.rank)
  bcast_S8x32x32x1x256_S8x32x32x32x256_0_1_2_3_4 : S8x32x32x1x256.BroadcastsInDim S8x32x32x32x256 (![0, 1, 2, 3, 4] : Fin 5 → Fin S8x32x32x32x256.rank)

variable [Facts₀]

class Facts : Prop extends Facts₀ where

variable [Facts]
-- ==== Proof.Spec.lean ====
/-
  The result both programs compute, as one function of the argument arrays.

  The token array `x` has shape [8, 32768, 256]. For each batch `b` a length word `u b` is given (32 bits, read
  signed). The result has shape [8, 32, 32, 32, 256]: at `(b, a, c, k, f)` it holds token `32·a + c` of batch `b`
  at feature `f` when both `a` and `c` are below the length word of `b`, and the zero pattern otherwise. The
  fourth coordinate `k` is not read: the result is constant along that axis.

  No algebra of the floats enters: the value is a selection between an input entry and a literal, so the statement
  holds at every float instance and never needs the inputs finite.
-/
import Idealize.ShloMosaic.PureOps.Ideal
import Idealize.ShloMosaic.Lib.ValueIdx

noncomputable section

namespace Cert.MaskedGrid

open Idealize.ShloMosaic Idealize.ShloMosaic.ValueIdx

/-- The shapes of the token array, of the vector of length words and of the result. -/
abbrev STok : Shape := ⟨3, ![8, 32768, 256]⟩
abbrev SLen : Shape := ⟨1, ![8]⟩
abbrev SOut : Shape := ⟨5, ![8, 32, 32, 32, 256]⟩

variable {F : FTy → Type} [FloatOps F]

/-- The token that grid cell `(a, c)` reads: the first 1024 tokens of a batch laid out row-major on a 32 × 32 grid. -/
def tok (a c : Fin 32) : Fin 32768 := ⟨a.val * 32 + c.val, by have := a.isLt; have := c.isLt; omega⟩

/-- Cell `(a, c)` is kept when both coordinates are below the length word `u`, compared as signed 32-bit integers. -/
def keep (u : BitVec 32) (a c : Fin 32) : BitVec 1 :=
  IntOp.andi (IntOp.cmpi .slt (BitVec.ofNat 32 a.val) u) (IntOp.cmpi .slt (BitVec.ofNat 32 c.val) u)

/-- The result at coordinates `(b, a, c, ·, f)`. -/
def cell (x : STok.Idx → F .f32) (u : SLen.Idx → BitVec 32) (b : Fin 8) (a c : Fin 32) (f : Fin 256) : F .f32 :=
  Scalar.select (keep (u (ix1 b)) a c) (x (ix3 b (tok a c) f)) (FloatOps.ofBits .f32 0x00000000#32)

/-- The whole result array. -/
def grid (x : STok.Idx → F .f32) (u : SLen.Idx → BitVec 32) : SOut.Idx → F .f32 :=
  fun j => cell x u (j 0) (j 1) (j 2) (j 4)

theorem grid_ix5 (x : STok.Idx → F .f32) (u : SLen.Idx → BitVec 32) (b : Fin 8) (a c k : Fin 32) (f : Fin 256) :
    grid x u (ix5 b a c k f) = cell x u b a c f := rfl

end Cert.MaskedGrid

end
-- ==== Proof.KernelPay.lean ====
/-
  The value the kernel body stores, read at one index of its block.

  At grid point `(p, q)` the body loads the 256-token input block, views it as an 8 × 32 grid of cells
  (cell `(il, j)` is token `32·il + j` of the block), and keeps cell `(il, j)` when both its global row
  `8·q + il` and its column `j` are below the length word `w` it read for batch `p`; a cell that is not kept
  becomes the zero pattern. The kept grid is then repeated along a new axis of extent 32 and stored as the
  [1, 8, 32, 32, 256] output block.

  Every operation on the way reads one element of its operand: the shape casts keep the row-major position, the
  broadcast forgets the new coordinate, the two iotas are the row and the column of the cell, and the row offset
  `8·q` is added as 32-bit words, which is the word of the sum because nothing wraps below 32.
-/
import proofs.«131694_j40750649704571_1_alg».proof.Proof.Gen.KernelIdeal.Skeleton
import proofs.«131694_j40750649704571_1_alg».proof.Proof.Spec
import Idealize.ShloMosaic.Lib.Pipeline.Value
import Idealize.ShloMosaic.Lib.ValueIdx

noncomputable section

namespace Cert.KernelIdeal.Body

open Cert.KernelIdeal Cert.KernelIdeal.Gen Cert.MaskedGrid
open Idealize.ShloMosaic Idealize.ShloMosaic.ValueIdx

variable {F : FTy → Type} [FloatOps F] {α : Type}

/-- Row `il` of row block `q` of the 32 × 32 grid. -/
def row (q : Fin 4) (il : Fin 8) : Fin 32 := ⟨q.val * 8 + il.val, by have := q.isLt; have := il.isLt; omega⟩
/-- The place of cell `(il, j)` among the 256 tokens of an input block. -/
def slot (il : Fin 8) (j : Fin 32) : Fin 256 := ⟨il.val * 32 + j.val, by have := il.isLt; have := j.isLt; omega⟩

/-! ## The layout operations of the body, each read at an index -/

/-- Adding the block's leading unit axis keeps the other four coordinates. -/
theorem cast_lead (x : S8x32x32x256.Idx → α) (h : S8x32x32x256.ShapeCasts S1x8x32x32x256)
    (z : Fin 1) (il : Fin 8) (j k : Fin 32) (f : Fin 256) :
    shapeCast S1x8x32x32x256 x h (ix5 z il j k f) = x (ix4 il j k f) :=
  shapeCast_apply x h _ _ (by
    rw [Shape.rowMajor_val_four, Shape.rowMajor_val_five]
    have hz : z.val = 0 := by have := z.isLt; omega
    show ((il.val * 32 + j.val) * 32 + k.val) * 256 + f.val
      = (((z.val * 8 + il.val) * 32 + j.val) * 32 + k.val) * 256 + f.val
    rw [hz]; omega)

/-- Repeating along the new axis forgets that axis' coordinate. -/
theorem spread_new (x : S8x32x1x256.Idx → α) (h : S8x32x1x256.Broadcasts S8x32x32x256)
    (il : Fin 8) (j k : Fin 32) (f : Fin 256) :
    broadcastTo S8x32x32x256 x h (ix4 il j k f) = x (ix4 il j (0 : Fin 1) f) :=
  broadcastTo_apply x h _ _ (fun a => by
    match a with
    | ⟨0, _⟩ => show il.val = if (8 : Nat) = 1 then 0 else il.val; rw [if_neg (by decide)]
    | ⟨1, _⟩ => show j.val = if (32 : Nat) = 1 then 0 else j.val; rw [if_neg (by decide)]
    | ⟨2, _⟩ => show 0 = if (1 : Nat) = 1 then 0 else k.val; rw [if_pos rfl]
    | ⟨3, _⟩ => show f.val = if (256 : Nat) = 1 then 0 else f.val; rw [if_neg (by decide)])

/-- Inserting the unit axis before the features keeps the three coordinates. -/
theorem cast_unit (x : S8x32x256.Idx → α) (h : S8x32x256.ShapeCasts S8x32x1x256)
    (il : Fin 8) (j : Fin 32) (z : Fin 1) (f : Fin 256) :
    shapeCast S8x32x1x256 x h (ix4 il j z f) = x (ix3 il j f) :=
  shapeCast_apply x h _ _ (by
    rw [Shape.rowMajor_val_three, Shape.rowMajor_val_four]
    have hz : z.val = 0 := by have := z.isLt; omega
    show (il.val * 32 + j.val) * 256 + f.val = ((il.val * 32 + j.val) * 1 + z.val) * 256 + f.val
    rw [hz]; omega)

/-- The 256 tokens of a block as an 8 × 32 grid, row-major. -/
theorem cast_cells (x : S256x256.Idx → α) (h : S256x256.ShapeCasts S8x32x256)
    (il : Fin 8) (j : Fin 32) (f : Fin 256) :
    shapeCast S8x32x256 x h (ix3 il j f) = x (ix2 (slot il j) f) :=
  shapeCast_apply x h _ _ (by
    rw [Shape.rowMajor_val_two, Shape.rowMajor_val_three]
    show (il.val * 32 + j.val) * 256 + f.val = (il.val * 32 + j.val) * 256 + f.val
    rfl)

/-- Dropping the input block's leading unit axis. -/
theorem cast_drop (x : S1x256x256.Idx → α) (h : S1x256x256.ShapeCasts S256x256) (r f : Fin 256) :
    shapeCast S256x256 x h (ix2 r f) = x (ix3 (0 : Fin 1) r f) :=
  shapeCast_apply x h _ _ (by
    rw [Shape.rowMajor_val_three, Shape.rowMajor_val_two]
    show ((0 : Nat) * 256 + r.val) * 256 + f.val = r.val * 256 + f.val
    omega)

/-- The iota along the rows is the cell's local row, the one along the columns its column. -/
theorem iota_row (h : S8x32x256.Iotas .tc 32 [0]) (il : Fin 8) (j : Fin 32) (f : Fin 256) :
    iota .tc S8x32x256 32 [0] h (ix3 il j f) = BitVec.ofNat 32 il.val := by
  show BitVec.ofNat 32 (0 * 8 + il.val) = _
  rw [Nat.zero_mul, Nat.zero_add]
theorem iota_col (h : S8x32x256.Iotas .tc 32 [1]) (il : Fin 8) (j : Fin 32) (f : Fin 256) :
    iota .tc S8x32x256 32 [1] h (ix3 il j f) = BitVec.ofNat 32 j.val := by
  show BitVec.ofNat 32 (0 * 32 + j.val) = _
  rw [Nat.zero_mul, Nat.zero_add]

/-- The global row as a word: the block's row offset `8·q` plus the local row. -/
theorem row_word (q : Fin 4) (il : Fin 8) :
    IntOp.addi (Scalar.muli (BitVec.ofNat 32 q.val) 8#32) (BitVec.ofNat 32 il.val) = BitVec.ofNat 32 (row q il).val := by
  show BitVec.ofNat 32 q.val * BitVec.ofNat 32 8 + BitVec.ofNat 32 il.val = BitVec.ofNat 32 (q.val * 8 + il.val)
  rw [BitVec.ofNat_add, BitVec.ofNat_mul]

/-! ## The stored value at an index -/

/-- THE STORED BLOCK at `(·, il, j, k, f)`, at a grid point whose second coordinate is `q`: cell `(il, j)` of the loaded
    block when row `8·q + il` and column `j` are below the length word, the zero pattern otherwise. -/
theorem pay_apply (i : grid0.Coords) (q : Fin 4) (hq : (i 1).val = q.val) (w : Elt F .i32) (x : Vec F S1x256x256 .f32)
    (z : Fin 1) (il : Fin 8) (j k : Fin 32) (f : Fin 256) :
    k0_pay1 i w x (ix5 z il j k f)
      = Scalar.select (keep w (row q il) j) (x (ix3 (0 : Fin 1) (slot il j) f)) (FloatOps.ofBits .f32 0x00000000#32) := by
  unfold k0_pay1
  refine (cast_lead _ _ z il j k f).trans ?_
  refine (spread_new _ _ il j k f).trans ?_
  rw [shapeCast_self]
  refine (cast_unit _ _ il j (0 : Fin 1) f).trans ?_
  show Scalar.select (IntOp.andi (IntOp.cmpi .slt (IntOp.addi (Scalar.muli (BitVec.ofNat 32 (i 1).val) 8#32)
        (iota .tc S8x32x256 32 [0] iota_S8x32x256_d0_w32 (ix3 il j f))) w)
      (IntOp.cmpi .slt (iota .tc S8x32x256 32 [1] iota_S8x32x256_d1_w32 (ix3 il j f)) w))
    (shapeCast S8x32x256 (shapeCast S256x256 x shapeCasts_S1x256x256_S256x256) shapeCasts_S256x256_S8x32x256 (ix3 il j f))
    (FloatOps.ofBits .f32 0x00000000#32) = _
  rw [iota_row, iota_col, cast_cells, cast_drop, hq, row_word]
  rfl

end Cert.KernelIdeal.Body

end
-- ==== Proof.KernelBlock.lean ====
/-
  From what one grid point writes back to the whole result array.

  The grid has 8 × 4 points; point `(p, q)` fetches tokens `256·q … 256·q + 255` of batch `p` and writes back rows
  `8·q … 8·q + 7` of batch `p` of the result. The body's one store covers its staging block, so the block it leaves
  is its stored value; the word it reads from the table of length words is the table's entry for batch `p`; and
  entry `(0, r, f)` of the fetched block is token `256·q + r` of batch `p`. With the stored value read at an index
  this makes the written-back block the restriction of the masked grid to rows `8·q … 8·q + 7` of batch `p`:
  row `8·q + il`, column `j` reads token `32·(8·q + il) + j = 256·q + (32·il + j)`.

  Every row of every batch lies in exactly the block of point `(p, row / 8)`, so the blocks cover the array and it
  ends holding the masked grid.

  The facts about the printed index maps are decided once over the 32 points; no index map reads the table.
-/
import proofs.«131694_j40750649704571_1_alg».proof.Proof.Gen.KernelIdeal.Frame
import proofs.«131694_j40750649704571_1_alg».proof.Proof.KernelPay

set_option maxRecDepth 16384

noncomputable section

namespace Cert.KernelIdeal.Blocks

open Cert.KernelIdeal Cert.KernelIdeal.Gen Cert.KernelIdeal.Body Cert.MaskedGrid
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

theorem hz5 : (![0, 0, 0, 0, 0] : Fin 5 → Nat) = fun _ => 0 := funext fun a => by fin_cases a <;> rfl
theorem hz3 : (![0, 0, 0] : Fin 3 → Nat) = fun _ => 0 := funext fun a => by fin_cases a <;> rfl

/-! ## The block the body leaves -/

/-- The word the body reads from the table of length words at a point: the entry at the offset the body computes. -/
def word (c : Dev nD) (i : grid0.Coords) (xt0 : TbBuf0 (F := F) c tbM0_0) : Elt F .i32 :=
  View.readAt (Elt F) tbM0_0.view (Rect.unit (s := S8) (k0_off1 i) S1.size (Facts₀.k0_off1_inb i)).toLoadRect xt0
    (Shape.Idx.first (Facts₀.numel1_S1.symm ▸ Nat.one_pos))

/-- THE BLOCK THE BODY LEAVES in the output's staging buffer is its stored value of the word and of the input block:
    the one store covers the block, and the load of the input reads the whole staging buffer. -/
theorem block_eq (c : Dev nD) (i : grid0.Coords) (arg3 : Memref sig .tc .vmem S1x256x256 .f32) (harg3 : arg3.IsWhole)
    (arg4 : Memref sig .tc .vmem S1x8x32x32x256 .f32) (harg4 : arg4.IsWhole)
    (x0 : Vec F S1x256x256 .f32) (xt0 : TbBuf0 (F := F) c tbM0_0) :
    out0_A_1 c i arg3 harg3 arg4 harg4 x0 xt0 = k0_pay1 i (word c i xt0) x0 := by
  unfold out0_A_1
  rw [View.read_writes_eq_canon _ _ _ (cover0_A_1 c i arg3 harg3 arg4 harg4 x0 xt0)]
  unfold kernelRun0_A
  dsimp only
  sl_unfold_words
  rw [View.canon_unit_zero (S := S1x8x32x32x256) hz5]
  simp only [View.readAt_eq_ld, harg3.read_unread, View.ld_unit_zero (S := S1x256x256) hz3]
  rfl

/-- The word read at a point of first coordinate `p` is the table's entry `p`. -/
theorem word_eq (c : Dev nD) (i : grid0.Coords) (p : Fin 8) (hp : (i 0).val = p.val) (xt0 : S8.Idx → BitVec 32) :
    word (F := F) c i xt0 = xt0 (ix1 p) := by
  show xt0 _ = xt0 _
  refine congrArg xt0 (funext fun a => Fin.ext ?_)
  match a with
  | ⟨0, _⟩ =>
    show (BitVec.ofNat 32 (i 0).val).toNat + 1 * 0 = p.val
    rw [hp, BitVec.toNat_ofNat]
    have := p.isLt
    omega

/-! ## The printed index maps, decided over the 32 points -/

/-- At every point the first coordinate is below 8 and the second below 4, and both index maps are the point's own
    two coordinates followed by zeros. -/
theorem idx_facts : ∀ t : Fin grid0.N, (grid0.coords t 0).val < 8 ∧ (grid0.coords t 1).val < 4
    ∧ cc0_transform_0 (grid0.coords t) (0 : Fin 3) = (grid0.coords t 0).val
    ∧ cc0_transform_0 (grid0.coords t) (1 : Fin 3) = (grid0.coords t 1).val
    ∧ cc0_transform_0 (grid0.coords t) (2 : Fin 3) = 0
    ∧ cc0_transform_1 (grid0.coords t) (0 : Fin 5) = (grid0.coords t 0).val
    ∧ cc0_transform_1 (grid0.coords t) (1 : Fin 5) = (grid0.coords t 1).val
    ∧ cc0_transform_1 (grid0.coords t) (2 : Fin 5) = 0
    ∧ cc0_transform_1 (grid0.coords t) (3 : Fin 5) = 0
    ∧ cc0_transform_1 (grid0.coords t) (4 : Fin 5) = 0 := by decide +kernel

/-- Every pair (batch, row block) is some point's. -/
theorem pts_onto : ∀ (p : Fin 8) (q : Fin 4), ∃ t : Fin grid0.N, (grid0.coords t 0).val = p.val ∧ (grid0.coords t 1).val = q.val := by
  decide +kernel

/-- Token `r` of the input block of row block `q`. -/
def tokOf (q : Fin 4) (r : Fin 256) : Fin 32768 := ⟨q.val * 256 + r.val, by have := q.isLt; have := r.isLt; omega⟩

/-- Row `8·q + il`, column `j` of the grid reads token `32·il + j` of the block of row block `q`. -/
theorem tok_row (q : Fin 4) (il : Fin 8) (j : Fin 32) : tok (row q il) j = tokOf q (slot il j) :=
  Fin.ext (by show (q.val * 8 + il.val) * 32 + j.val = q.val * 256 + (il.val * 32 + j.val); omega)

/-! ## One point's block is the masked grid on its rows -/

/-- At a point of coordinates `(p, q)`: if the loaded block holds tokens `256·q …` of batch `p` of `X` and the word is
    entry `p` of `u`, the stored value at block index `y` is the masked grid of `X` and `u` at the array index `J`
    that `y` is written to (batch `p`, row `8·q + y₁`, the other coordinates `y`'s). -/
theorem block_cell (i : grid0.Coords) (p : Fin 8) (q : Fin 4) (hq : (i 1).val = q.val)
    (X : STok.Idx → F .f32) (u : SLen.Idx → BitVec 32) (x : Vec F S1x256x256 .f32)
    (hx : ∀ r f : Fin 256, x (ix3 (0 : Fin 1) r f) = X (ix3 p (tokOf q r) f))
    (y : S1x8x32x32x256.Idx) (J : SOut.Idx)
    (hJ0 : (J 0).val = p.val) (hJ1 : (J 1).val = q.val * 8 + (y 1).val) (hJ2 : (J 2).val = (y 2).val)
    (hJ4 : (J 4).val = (y 4).val) :
    k0_pay1 i (u (ix1 p)) x y = grid X u J := by
  obtain ⟨z, il, j, k, f, rfl⟩ : ∃ (z : Fin 1) (il : Fin 8) (j k : Fin 32) (f : Fin 256), y = ix5 z il j k f :=
    ⟨y 0, y 1, y 2, y 3, y 4, eq_ix5 y⟩
  have e0 : J 0 = p := Fin.ext hJ0
  have e1 : J 1 = row q il := Fin.ext hJ1
  have e2 : J 2 = j := Fin.ext hJ2
  have e4 : J 4 = f := Fin.ext hJ4
  rw [pay_apply i q hq, hx, show grid X u J = cell X u (J 0) (J 1) (J 2) (J 4) from rfl, e0, e1, e2, e4, ← tok_row]
  rfl

variable (m : (ℓ : Loc nD τ sig) → Buf (Elt F) ℓ) (ρ : Dev nD → PrngReg)

/-- Entry `(0, r, f)` of the block fetched at a point of coordinates `(p, q)` is token `256·q + r` of batch `p`. -/
theorem iblk_apply (hO : Ok m) (c : Dev nD) (t : Fin (cfgM m hO).N) (p : Fin 8) (q : Fin 4)
    (hp : (grid0.coords t 0).val = p.val) (hq : (grid0.coords t 1).val = q.val) (r f : Fin 256) :
    iblk m hO c 0 t (ix3 (0 : Fin 1) r f) = V m c main_arg0 (ix3 p (tokOf q r) f) := by
  obtain ⟨-, -, a0, a1, a2, -⟩ := idx_facts t
  show V m c main_arg0 ((((cfgM m hO).win 0).blk t).view.emb (ix3 (0 : Fin 1) r f)) = _
  refine congrArg (V m c main_arg0) (funext fun a => Fin.ext ?_)
  match a with
  | ⟨0, _⟩ => show cc0_transform_0 (grid0.coords t) (0 : Fin 3) * 1 + 1 * 0 = p.val; rw [a0, hp]; omega
  | ⟨1, _⟩ => show cc0_transform_0 (grid0.coords t) (1 : Fin 3) * 256 + 1 * r.val = q.val * 256 + r.val; rw [a1, hq]; omega
  | ⟨2, _⟩ => show cc0_transform_0 (grid0.coords t) (2 : Fin 3) * 256 + 1 * f.val = f.val; rw [a2]; omega

-- the block fetched at a point and the staged block's index type are the literal shapes only after the pipeline's
-- window is unfolded: the rewrites below match through that unfolding
set_option backward.isDefEq.respectTransparency.types false in
/-- WHAT POINT `t` WRITES BACK is block `t` of the masked grid of the token array and of the table of length words,
    both as the region finds them. -/
theorem flushed_eq (hO : Ok m) (c : Dev nD) (t : Fin (cfgM m hO).N) :
    (dats m hO 0 c).flushed 1 t
      = (((cfgM m hO).win 1).blk t).view.read (Elt F) (grid (F := F) (V m c main_arg0) (V m c main_v5)) := by
  obtain ⟨hp, hq, -, -, -, b0, b1, b2, b3, b4⟩ := idx_facts t
  have hT : (tbl m 0 : S8.Idx → BitVec 32) = V m c main_v5 := (V_pre m c 0).symm
  show ((cfgM m hO).win 1).cut (grid0.coords t) ((dats m hO 0 c).after 1 t) = _
  rw [after0_1]
  unfold outsAt0
  rw [block_eq, word_eq c (grid0.coords t) ⟨_, hp⟩ rfl, hT]
  refine funext fun (y : S1x8x32x32x256.Idx) => ?_
  show k0_pay1 (grid0.coords t) (V m c main_v5 (ix1 ⟨_, hp⟩)) (iblk m hO c 0 t) y
    = grid (F := F) (V m c main_arg0) (V m c main_v5) ((((cfgM m hO).win 1).blk t).view.emb y)
  refine block_cell (grid0.coords t) ⟨_, hp⟩ ⟨_, hq⟩ rfl _ _ _ (iblk_apply m hO c t ⟨_, hp⟩ ⟨_, hq⟩ rfl rfl) y _ ?_ ?_ ?_ ?_
  · show cc0_transform_1 (grid0.coords t) (0 : Fin 5) * 1 + 1 * (y 0).val = (grid0.coords t 0).val
    have : (y 0).val < 1 := (y 0).isLt
    rw [b0]; omega
  · show cc0_transform_1 (grid0.coords t) (1 : Fin 5) * 8 + 1 * (y 1).val = (grid0.coords t 1).val * 8 + (y 1).val
    rw [b1]; omega
  · show cc0_transform_1 (grid0.coords t) (2 : Fin 5) * 32 + 1 * (y 2).val = (y 2).val
    rw [b2]; omega
  · show cc0_transform_1 (grid0.coords t) (4 : Fin 5) * 256 + 1 * (y 4).val = (y 4).val
    rw [b4]; omega

/-! ## The blocks cover the array -/

set_option backward.isDefEq.respectTransparency.types false in
/-- An index of the result is in point `t`'s block iff each coordinate is in the block's range on its axis. -/
theorem mem_blk (hO : Ok m) (t : Fin (cfgM m hO).N) (i : S8x32x32x32x256.Idx) :
    i ∈ (((cfgM m hO).win 1).blk t).view.set ↔ ∀ a : Fin 5,
      cc0_transform_1 (grid0.coords t) a * S1x8x32x32x256.size a ≤ (i a).val
      ∧ (i a).val < cc0_transform_1 (grid0.coords t) a * S1x8x32x32x256.size a + S1x8x32x32x256.size a := by
  show i ∈ ((View.whole main_v6).slice (((cfgM m hO).win 1).rect t)).set ↔ _
  rw [View.set_slice_whole]
  exact Rect.mem_set_unit (s := S8x32x32x32x256)
    (off := fun a => cc0_transform_1 (grid0.coords t) a * S1x8x32x32x256.size a) (size := S1x8x32x32x256.size) (i := i)

/-- Every index of the result is in the block of the point (its batch, its row / 8). -/
theorem cover (hO : Ok m) (i : S8x32x32x32x256.Idx) :
    ∃ t : Fin (cfgM m hO).N, ((cfgM m hO).win 1).flush t = true ∧ i ∈ (((cfgM m hO).win 1).blk t).view.set := by
  have h0 : (i 0).val < 8 := (i 0).isLt
  have h1 : (i 1).val < 32 := (i 1).isLt
  have h2 : (i 2).val < 32 := (i 2).isLt
  have h3 : (i 3).val < 32 := (i 3).isLt
  have h4 : (i 4).val < 256 := (i 4).isLt
  obtain ⟨t, tp, tq⟩ := pts_onto ⟨(i 0).val, h0⟩ ⟨(i 1).val / 8, by omega⟩
  obtain ⟨-, -, -, -, -, b0, b1, b2, b3, b4⟩ := idx_facts t
  refine ⟨t, flush0_1 (adm m hO) t, ?_⟩
  rw [mem_blk]
  intro a
  match a with
  | ⟨0, _⟩ => show cc0_transform_1 (grid0.coords t) (0 : Fin 5) * 1 ≤ (i 0).val ∧ (i 0).val < cc0_transform_1 (grid0.coords t) (0 : Fin 5) * 1 + 1
              rw [b0, tp]; show (i 0).val * 1 ≤ (i 0).val ∧ (i 0).val < (i 0).val * 1 + 1; omega
  | ⟨1, _⟩ => show cc0_transform_1 (grid0.coords t) (1 : Fin 5) * 8 ≤ (i 1).val ∧ (i 1).val < cc0_transform_1 (grid0.coords t) (1 : Fin 5) * 8 + 8
              rw [b1, tq]; show (i 1).val / 8 * 8 ≤ (i 1).val ∧ (i 1).val < (i 1).val / 8 * 8 + 8; omega
  | ⟨2, _⟩ => show cc0_transform_1 (grid0.coords t) (2 : Fin 5) * 32 ≤ (i 2).val ∧ (i 2).val < cc0_transform_1 (grid0.coords t) (2 : Fin 5) * 32 + 32
              rw [b2]; omega
  | ⟨3, _⟩ => show cc0_transform_1 (grid0.coords t) (3 : Fin 5) * 32 ≤ (i 3).val ∧ (i 3).val < cc0_transform_1 (grid0.coords t) (3 : Fin 5) * 32 + 32
              rw [b3]; omega
  | ⟨4, _⟩ => show cc0_transform_1 (grid0.coords t) (4 : Fin 5) * 256 ≤ (i 4).val ∧ (i 4).val < cc0_transform_1 (grid0.coords t) (4 : Fin 5) * 256 + 256
              rw [b4]; omega

/-- THE RESULT ARRAY after the run is the masked grid of the token array and of the table of length words. -/
theorem final (hO : Ok m) (c : Dev nD) :
    (dats m hO 0 c).arrAt 1 (cfgM m hO).N = grid (F := F) (V m c main_arg0) (V m c main_v5) :=
  (dats m hO 0 c).arrAt_eq_of_cover 1 (grid (F := F) (V m c main_arg0) (V m c main_v5))
    (fun t _ => flushed_eq m hO c t) (cover m hO)

end Cert.KernelIdeal.Blocks

end
-- ==== Proof.KernelRun.lean ====
/-
  The kernel program's run with its result named.

  Before the call, the program computes one length word per batch from the mask: the sum of the batch's mask entries,
  converted to a float, raised to the literal power, rounded to the nearest even integer and converted back to a
  32-bit integer. These eight words are the table the body reads. The token array is not touched before the call.
  So the result array, the masked grid of what the region finds, is the masked grid of the token argument and of
  that function of the mask argument; the arguments end as they were.
-/
import proofs.«131694_j40750649704571_1_alg».proof.Proof.KernelBlock
import Idealize.ShloMosaic.Lib.StableHlo.Run

set_option maxRecDepth 16384

noncomputable section

namespace Cert.KernelIdeal.RunValue

open Cert.KernelIdeal Cert.KernelIdeal.Gen Cert.KernelIdeal.Blocks Cert.MaskedGrid
open Idealize.ShloMosaic Idealize.ShloMosaic.TcCoe Idealize.SL.Sem Idealize.ShloMosaic.StableHlo

variable {F : FTy → Type} [FloatOps F]

/-- The length words as the program computes them from the mask before the call. The chain is carried whole: the
    other program applies the same operations, and nothing here looks inside it. -/
def lens (x1 : S8x32768.Idx → BitVec 32) : S8.Idx → BitVec 32 :=
  fptosi 32 (Host.roundeven (Host.powf (F := F)
    (sitofp .f32 (Host.reduce IntOp.addi x1 (constantI S_ 32 0#32) Facts₀.reducesTo_S8x32768_S8_d1 Facts₀.h_S_))
    (broadcastInDim S8 ![] Facts₀.bcast_S_S8 (constant S_ .f32 0x3EAAAAAB#32))))

variable (m : (ℓ : Loc nD τ sig) → Buf (Elt F) ℓ) (ρ : Dev nD → PrngReg)

/-- The table the region finds is that function of the mask argument. -/
theorem V_lens (c : Dev nD) :
    (V m c main_v5 : S8.Idx → BitVec 32) = lens (F := F) (m ((c : Thread nD τ).loc main_arg1)) := by
  dsimp only [V]
  simp only [hostOps0, hostOps0_1, hostOps0_2, List.flatten_cons, List.flatten_nil, List.append_nil, List.cons_append,
    List.nil_append]
  after_results
  rfl

/-- THE KERNEL PROGRAM'S RUN: the result array at the masked grid of the token argument and of the length words of the
    mask argument, the arguments unchanged. -/
theorem run (hO : Ok m) :
    θ_run defs (onTc (τ := τ) (main (F := F))) ⟨m, fun _ => 0, ρ⟩ fun r => ∀ c : Dev nD,
      r.2.mem ((c.tc : Thread nD τ).loc main_v6)
          = grid (F := F) (m ((c.tc : Thread nD τ).loc main_arg0)) (lens (F := F) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).1 1).trans ((final m hO c).trans (by rw [V_main_arg0, V_lens])),
        ((h c).1 0).trans (((dats m hO 0 c).arrAt_in 0 rfl _).trans ((A_eq m hO c 0).trans (V_main_arg0 m c))),
        ((h c).2 main_arg1 (by decide : main_arg1 ∈ Pipeline.restRefs sig spec0)).trans (V_main_arg1 m c)⟩)
    (run_main m ρ hO)

end Cert.KernelIdeal.RunValue

end
-- ==== Proof.RefSide.lean ====
/-
  The reference's result, read index by index, is the masked grid of the token array and of the length words the
  reference computes from the mask.

  The reference takes the first 1024 tokens of each batch, reshapes them to a 32 × 32 grid, compares two iotas with
  the broadcast length words, selects between the tokens and a zero, and broadcasts along a new axis of extent 32.
  Each of these reads one element of its operand, so the composed index functions are decided coordinate by
  coordinate; the only arithmetic is that position `((32 b + a) 32 + c) 256 + f` of the reshaped array is token
  `32 a + c` of batch `b`, feature `f`.
-/
import proofs.«131694_j40750649704571_1_alg».proof.Proof.RefReadP
import proofs.«131694_j40750649704571_1_alg».proof.Proof.Spec

noncomputable section

namespace Cert.ReferenceIdeal.RefValue

open Cert.ReferenceIdeal Cert.ReferenceIdeal.ReadP Cert.MaskedGrid
open Idealize.ShloMosaic Idealize.ShloMosaic.ValueIdx

variable {F : FTy → Type} [FloatOps F]

/-- The length words as the reference computes them from the mask: the per-batch sum, converted, raised to the
    literal power, rounded and converted back. Both programs apply this same chain; it is never opened. -/
abbrev lens (x1 : (⟨S8x32768, .i32⟩ : BufTy).Contents (Elt F)) : SLen.Idx → BitVec 32 := val_main_v5 (F := F) x1

/-- Where the broadcasts send a result index on the way to the length words: to the batch. -/
theorem lenIdx_row (b : Fin 8) (a c k : Fin 32) (f : Fin 256) :
    idx_main_v10 (idx_main_v12 (idx_main_v19 (idx_main_v22 (idx_main_call1_v0 (idx_main_v25 (ix5 b a c k f)))))) = ix1 b :=
  funext fun d => by match d with | ⟨0, _⟩ => rfl
theorem lenIdx_col (b : Fin 8) (a c k : Fin 32) (f : Fin 256) :
    idx_main_v15 (idx_main_v17 (idx_main_v20 (idx_main_v22 (idx_main_call1_v0 (idx_main_v25 (ix5 b a c k f)))))) = ix1 b :=
  funext fun d => by match d with | ⟨0, _⟩ => rfl

/-- Where the slice, the reshape and the broadcast send a result index on the way to the token array. -/
theorem tokIdx (b : Fin 8) (a c k : Fin 32) (f : Fin 256) :
    idx_main_v6 (idx_main_v7 (idx_main_v23 (idx_main_v25 (ix5 b a c k f)))) = ix3 b (tok a c) f := by
  have hb := b.isLt; have ha := a.isLt; have hc := c.isLt; have hf := f.isLt
  funext d
  match d with
  | ⟨0, _⟩ => exact Fin.ext (by show (((b.val * 32 + a.val) * 32 + c.val) * 256 + f.val) / 262144 = b.val; omega)
  | ⟨1, _⟩ => exact Fin.ext (by show (((b.val * 32 + a.val) * 32 + c.val) * 256 + f.val) / 256 % 1024 = a.val * 32 + c.val; omega)
  | ⟨2, _⟩ => exact Fin.ext (by show (((b.val * 32 + a.val) * 32 + c.val) * 256 + f.val) % 256 = f.val; omega)

/-- THE REFERENCE'S RESULT IS THE MASKED GRID of the token array and of its own length words. -/
theorem result_eq (x0 : (⟨S8x32768x256, .f32⟩ : BufTy).Contents (Elt F)) (x1 : (⟨S8x32768, .i32⟩ : BufTy).Contents (Elt F)) :
    val_main_v25 (F := F) x0 x1 = grid (F := F) x0 (lens (F := F) x1) := by
  funext j
  obtain ⟨b, a, c, k, f, rfl⟩ : ∃ (b : Fin 8) (a c k : Fin 32) (f : Fin 256), j = ix5 b a c k f :=
    ⟨j 0, j 1, j 2, j 3, j 4, eq_ix5 j⟩
  rw [grid_ix5, val_main_v25_apply, val_main_v24_apply, val_main_call1_v0_apply, val_main_v22_apply, val_main_v21_apply,
    val_main_v19_apply, val_main_v20_apply, val_main_v13_apply, val_main_v18_apply, val_main_v11_apply, val_main_v12_apply,
    val_main_v16_apply, val_main_v17_apply, val_main_v9_apply, val_main_v14_apply, val_main_v10_apply, val_main_v15_apply,
    val_main_v8_apply, val_main_v8_apply, val_main_v23_apply, val_main_v7_apply, val_main_v6_apply,
    val_main_call1_v1_apply, val_main_cst_0_apply, lenIdx_row, lenIdx_col, tokIdx]
  rfl

end Cert.ReferenceIdeal.RefValue

end
-- ==== Proof.lean ====
/-
  The proof of `Cert.Claim`: the three frames, the idealization, and the equality of the two results.

  Both programs compute, from the mask, one length word per batch by the same chain of operations, and then build the
  same array: entry `(b, a, c, k, f)` is token `32·a + c` of batch `b` at feature `f` when `a` and `c` are both below
  the length word of `b`, and zero otherwise (Proof/Spec.lean). The kernel does it block by block — 8 rows of one
  batch per grid point, the length word read from a table (Proof/KernelPay.lean, KernelBlock.lean, KernelRun.lean);
  the reference does it by slicing, reshaping, comparing iotas and broadcasting (Proof/RefSide.lean). The value is a
  selection between an input entry and a literal, so no law of the extended reals is used and the inputs' finiteness
  is never opened.

  The kernel's frames hold for every contents of the table: no index map reads it, so the side condition on the table
  is the true proposition. The idealization rewrote no operation, so `preserves` is `True`.
-/
import proofs.«131694_j40750649704571_1_alg».proof.Defs
import proofs.«131694_j40750649704571_1_alg».proof.Proof.Gen.Kernel
import proofs.«131694_j40750649704571_1_alg».proof.Proof.Gen.Kernel.Frame
import proofs.«131694_j40750649704571_1_alg».proof.Proof.Gen.KernelIdeal
import proofs.«131694_j40750649704571_1_alg».proof.Proof.Gen.KernelIdeal.Frame
import proofs.«131694_j40750649704571_1_alg».proof.Proof.Gen.ReferenceIdeal
import proofs.«131694_j40750649704571_1_alg».proof.Proof.Gen.Pre_finite_inputs
import proofs.«131694_j40750649704571_1_alg».proof.Proof.KernelRun
import proofs.«131694_j40750649704571_1_alg».proof.Proof.RefSide
import Idealize.ShloMosaic.Adequacy
import Idealize.ShloMosaic.Init

noncomputable section

namespace Cert.Proof

open Idealize.ShloMosaic Idealize.ShloMosaic.TcCoe Idealize.SL.Sem Cert.MaskedGrid

/-- The kernel's frame, as printed and idealized: the generated frame, whose side condition on the table is `True`. -/
theorem frame_k : Cert.frame_Kernel := fun m ρ _ => Cert.Kernel.Gen.frame m ρ True.intro
theorem frame_ki : Cert.frame_KernelIdeal := fun m ρ _ => Cert.KernelIdeal.Gen.frame m ρ True.intro

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two programs' length words are one function of the mask: the same operations with the same literal. -/
theorem lens_eq (x1 : (⟨Cert.ReferenceIdeal.S8x32768, .i32⟩ : BufTy).Contents (Elt Ideal)) :
    Cert.ReferenceIdeal.RefValue.lens (F := Ideal) x1 = Cert.KernelIdeal.RunValue.lens (F := Ideal) x1 := rfl

/-- From memories that agree on the arguments both programs end with the masked grid of the token argument and of the
    length words of the mask argument. -/
theorem algebraic : Cert.algebraic_KernelIdeal_ReferenceIdeal := by
  intro m ρ m' ρ' _ hagree
  refine ⟨fun c => grid (F := Ideal) (m ((c.tc : Thread Cert.KernelIdeal.nD Cert.KernelIdeal.τ).loc Cert.KernelIdeal.main_arg0))
      (Cert.KernelIdeal.RunValue.lens (F := Ideal) (m ((c.tc : Thread Cert.KernelIdeal.nD Cert.KernelIdeal.τ).loc Cert.KernelIdeal.main_arg1))),
    Cert.KernelIdeal.RunValue.run (F := Ideal) m ρ True.intro, ?_⟩
  refine (θ_run Cert.ReferenceIdeal.defs _ _).mono (fun _ h c => ⟨?_, (h c).2⟩)
    (Cert.ReferenceIdeal.ValueP.run (F := Ideal) m' ρ')
  refine (h c).1.trans ((Cert.ReferenceIdeal.ReadP.val_main_v25_eq _ _).trans
    ((Cert.ReferenceIdeal.RefValue.result_eq _ _).trans ?_))
  rw [(hagree c).1, (hagree c).2, lens_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
